-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S8192x16 : Shape := ⟨2, ![8192, 16]⟩
abbrev S1024x1024 : Shape := ⟨2, ![1024, 1024]⟩
abbrev S1024x16 : Shape := ⟨2, ![1024, 16]⟩
abbrev S1x1024 : Shape := ⟨2, ![1, 1024]⟩
abbrev S16x1024 : Shape := ⟨2, ![16, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S1x4096, .f32⟩
  | .hbm, ⟨7, _⟩ => ⟨S8192x4096, .bf16⟩
  | .hbm, ⟨8, _⟩ => ⟨S4096x4096, .bf16⟩
  | .hbm, ⟨9, _⟩ => ⟨S4096x16, .bf16⟩
  | .hbm, ⟨10, _⟩ => ⟨S16x4096, .bf16⟩
  | .hbm, ⟨11, _⟩ => ⟨S8192x16, .f32⟩
  | .hbm, ⟨12, _⟩ => ⟨S8192x16, .bf16⟩
  | .hbm, ⟨13, _⟩ => ⟨S8192x4096, .f32⟩
  | .hbm, ⟨14, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1x1024, .f32⟩
  | .local _ .vmem, ⟨7, _⟩ => ⟨S1x1024, .f32⟩
  | .local _ .vmem, ⟨8, _⟩ => ⟨S16x1024, .bf16⟩
  | .local _ .vmem, ⟨9, _⟩ => ⟨S16x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S1024x1024_S1024x1024_S1024x1024_1_1_0_0_n_n_wf : DotDims.WF S1024x1024 S1024x1024 S1024x1024 [1] [1] [0] [0] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .bf16 = 32 ∨ (Rect.block (s := S16x4096) S16x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x2048x16 : Shape := ⟨3, ![4, 2048, 16]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.Pieces.lean ====
/-
  What one grid point leaves behind, as values. The body keeps a running total in a scratch block that survives from one
  point to the next, and writes the output block only at the last step of the contraction axis. Per case of its two
  conditionals:

  * first step of the contraction axis: the scratch is zeroed, read back, and left at `zero + x·wᵀ` of the point's blocks;
  * a middle step: the scratch, found at `acc`, is left at `acc + x·wᵀ`;
  * last step: the scratch is left at `acc + x·wᵀ` as well, and the output block at that total plus the low-rank
    correction `r·B` plus the bias row.

  Each store covers its whole buffer, so what a buffer holds afterwards is the last store's payload, and a load of a buffer
  just stored reads that payload back. Stated for any float instance.
-/
import proofs.«135452_j72980084293845_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Blocked

open Cert.KernelIdeal Cert.KernelIdeal.Gen

variable {F : FTy → Type} [FloatOps F]

/-- The offset of every access of the body: the origin of its buffer. -/
theorem origin2 : (![0, 0] : Fin 2 → Nat) = fun _ => 0 := funext fun a => by fin_cases a <;> rfl

/-- A middle step leaves the running total, found at `acc`, at `acc + x·wᵀ`. -/
theorem scratch_mid (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x1024 .f32) (h6 : a6.IsWhole) (a7 : Memref sig .tc .vmem S16x1024 .bf16) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 : Vec F S1024x1024 .bf16) (x1 : Vec F S1024x1024 .bf16) (x2 : Vec F S1024x16 .bf16) (x3 : Vec F S1x1024 .f32) (x4 : Vec F S16x1024 .bf16) (acc : Vec F S1024x1024 .f32) :
    sout0_B_0 c i a3 h3 a4 h4 a5 h5 a6 h6 a7 h7 a8 h8 a9 h9 hc0 hc1 x0 x1 x2 x3 x4 acc = k0_pay2 acc x0 x1 := by
  unfold sout0_B_0
  rw [View.read_writes_eq_canon _ _ _ (scover0_B_0 c i a3 h3 a4 h4 a5 h5 a6 h6 a7 h7 a8 h8 a9 h9 hc0 hc1 x0 x1 x2 x3 x4 acc)]
  unfold kernelRun0_B
  dsimp only
  rw [View.canon_unit_zero origin2]
  simp only [View.readAt_eq_ld, h9.read_unread, h3.read_unread, h4.read_unread, View.ld_unit_zero (S := S1024x1024) origin2]

/-- The first step zeroes the running total, reads the zeros back, and leaves `zero + x·wᵀ`. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x1024 .f32) (h6 : a6.IsWhole) (a7 : Memref sig .tc .vmem S16x1024 .bf16) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 : Vec F S1024x1024 .bf16) (x1 : Vec F S1024x1024 .bf16) (x2 : Vec F S1024x16 .bf16) (x3 : Vec F S1x1024 .f32) (x4 : Vec F S16x1024 .bf16) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, View.ld_unit_zero (S := S1024x1024) origin2]

/-- The last step leaves the running total at `acc + x·wᵀ` too. -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x1024 .f32) (h6 : a6.IsWhole) (a7 : Memref sig .tc .vmem S16x1024 .bf16) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1x1024 .f32) (x4 : Vec F S16x1024 .bf16) (acc : Vec F S1024x1024 .f32) :
    sout0_C_0 c i a3 h3 a4 h4 a5 h5 a6 h6 a7 h7 a8 h8 a9 h9 hc0 hc1 x0 x1 x2 x3 x4 acc = k0_pay2 acc x0 x1 := by
  unfold sout0_C_0
  rw [View.read_writes_eq_canon _ _ _ (scover0_C_0 c i a3 h3 a4 h4 a5 h5 a6 h6 a7 h7 a8 h8 a9 h9 hc0 hc1 x0 x1 x2 x3 x4 acc)]
  unfold kernelRun0_C
  dsimp only
  sl_unfold_words
  rw [View.canon_unit_zero origin2]
  simp only [View.readAt_eq_ld, h9.read_unread, h3.read_unread, h4.read_unread, View.ld_unit_zero (S := S1024x1024) origin2]

/-- The last step leaves the output block at the finished total, plus the low-rank correction, plus the bias row. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x1024 .f32) (h6 : a6.IsWhole) (a7 : Memref sig .tc .vmem S16x1024 .bf16) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1x1024 .f32) (x4 : Vec F S16x1024 .bf16) (acc : Vec F S1024x1024 .f32) :
    out0_C_5 c i a3 h3 a4 h4 a5 h5 a6 h6 a7 h7 a8 h8 a9 h9 hc0 hc1 x0 x1 x2 x3 x4 acc = k0_pay3 x2 x4 (k0_pay2 acc x0 x1) x3 := by
  unfold out0_C_5
  rw [View.read_writes_eq_canon _ _ _ (cover0_C_5 c i a3 h3 a4 h4 a5 h5 a6 h6 a7 h7 a8 h8 a9 h9 hc0 hc1 x0 x1 x2 x3 x4 acc)]
  unfold kernelRun0_C
  dsimp only
  sl_unfold_words
  rw [View.canon_unit_zero origin2, View.readCov_unit_zero (S := S1024x1024) _ origin2]
  simp only [View.readAt_eq_ld, h9.read_unread, h3.read_unread, h4.read_unread, h5.read_unread, h6.read_unread, h7.read_unread,
    View.ld_unit_zero (S := S1024x1024) origin2, View.ld_unit_zero (S := S1024x16) origin2, View.ld_unit_zero (S := S16x1024) origin2,
    View.ld_unit_zero (S := S1x1024) origin2]

end Cert.KernelIdeal.Blocked

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.Payload.lean ====
/-
  The body's arithmetic at one entry `(p, q)` of a 1024 × 1024 block, over the extended reals.

  * The zero block is `0` everywhere.
  * One step of the contraction axis adds to the running total the inner product of row `p` of the `x` block with row `q`
    of the `W` block (the weight is stored output-major, so both operands are contracted along their second axis).
  * The last step adds the low-rank correction — the inner product of row `p` of the `r` block with column `q` of the `B`
    block, sixteen terms — and then entry `q` of the bias row, which the body repeats down the rows.

  A matrix product into a zero accumulator is the plain sum of products; nothing here needs a finite operand.
-/
import proofs.«135452_j72980084293845_2_alg».proof.Proof.Gen.KernelIdeal.Skeleton
import proofs.«135452_j72980084293845_2_alg».proof.Proof.LibIdx
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Blocked

open Cert.KernelIdeal Cert.KernelIdeal.Gen Cert.Proof.LibIdx

/-! ## The base product: both operands contracted along their second axis -/

theorem base_lhs_row (i : S1024x1024.Idx) (κ : dot_S1024x1024_S1024x1024_S1024x1024_1_1_0_0_n_n.contr.Idx) :
    (dot_S1024x1024_S1024x1024_S1024x1024_1_1_0_0_n_n.lhsIdx i κ 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

theorem base_rhs_row (i : S1024x1024.Idx) (κ : dot_S1024x1024_S1024x1024_S1024x1024_1_1_0_0_n_n.contr.Idx) :
    (dot_S1024x1024_S1024x1024_S1024x1024_1_1_0_0_n_n.rhsIdx i κ 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- Entry `(p, q)` of `x·wᵀ` into a zero accumulator: the inner product of row `p` of `x` and row `q` of `w`. -/
theorem base_apply (x w : FVec Ideal S1024x1024 .bf16) (p q : Fin 1024) :
    FloatOps.matmul dot_S1024x1024_S1024x1024_S1024x1024_1_1_0_0_n_n none x w (constant (F := Ideal) S1024x1024 .f32 0x00000000#32) (ix2 p q)
      = ∑ j : Fin 1024, x (ix2 p j) * w (ix2 q j) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    ix2_ext _ p k (base_lhs_row _ _) ((dot_S1024x1024_S1024x1024_S1024x1024_1_1_0_0_n_n.lhsIdx_val_of_single rfl _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    ix2_ext _ q k (base_rhs_row _ _) ((dot_S1024x1024_S1024x1024_S1024x1024_1_1_0_0_n_n.rhsIdx_val_of_single rfl _ _).trans hk)
  rw [el, er]

/-! ## The low-rank product: sixteen terms -/

theorem low_lhs_row (i : S1024x1024.Idx) (κ : dot_S1024x16_S16x1024_S1024x1024_1_0_0_1_n_n.contr.Idx) :
    (dot_S1024x16_S16x1024_S1024x1024_1_0_0_1_n_n.lhsIdx i κ 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl

theorem low_rhs_col (i : S1024x1024.Idx) (κ : dot_S1024x16_S16x1024_S1024x1024_1_0_0_1_n_n.contr.Idx) :
    (dot_S1024x16_S16x1024_S1024x1024_1_0_0_1_n_n.rhsIdx i κ 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry `(p, q)` of `r·B` into a zero accumulator: row `p` of `r` against column `q` of `B`. -/
theorem low_apply (r : FVec Ideal S1024x16 .bf16) (bl : FVec Ideal S16x1024 .bf16) (p q : Fin 1024) :
    FloatOps.matmul dot_S1024x16_S16x1024_S1024x1024_1_0_0_1_n_n none r bl (constant (F := Ideal) S1024x1024 .f32 0x00000000#32) (ix2 p q)
      = ∑ j : Fin 16, r (ix2 p j) * bl (ix2 j q) := by
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k :=
    ix2_ext _ p k (low_lhs_row _ _) ((dot_S1024x16_S16x1024_S1024x1024_1_0_0_1_n_n.lhsIdx_val_of_single rfl _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q :=
    ix2_ext _ k q ((dot_S1024x16_S16x1024_S1024x1024_1_0_0_1_n_n.rhsIdx_val_of_single rfl _ _).trans hk) (low_rhs_col _ _)
  rw [el, er]

/-! ## The bias row repeated down the rows -/

/-- A `[1, 1024]` row broadcast to `[1024, 1024]` reads, at `(p, q)`, the row's entry `q`. -/
theorem row_broadcast_apply {α : Type} (v : S1x1024.Idx → α) (h : S1x1024.Broadcasts S1024x1024) (p q : Fin 1024) :
    broadcastTo S1024x1024 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-! ## The three payloads -/

/-- The zero block. -/
theorem zero_block_apply (j : S1024x1024.Idx) : k0_pay1 (F := Ideal) j = 0 := by
  unfold k0_pay1
  rw [shapeCast_self]
  exact Ideal.ofBits_zero_f32

/-- One step: the running total plus the inner product of the two rows. -/
theorem step_apply (acc : Vec Ideal S1024x1024 .f32) (x w : Vec Ideal S1024x1024 .bf16) (p q : Fin 1024) :
    k0_pay2 (F := Ideal) acc x w (ix2 p q) = acc (ix2 p q) + ∑ j : Fin 1024, x (ix2 p j) * w (ix2 q j) := by
  unfold k0_pay2
  simp only [shapeCast_self]
  exact congrArg (acc (ix2 p q) + ·) (base_apply x w p q)

/-- The last step: the total, plus the low-rank correction, plus the bias entry. -/
theorem finish_apply (r : Vec Ideal S1024x16 .bf16) (bl : Vec Ideal S16x1024 .bf16) (tot : Vec Ideal S1024x1024 .f32)
    (bias : Vec Ideal S1x1024 .f32) (p q : Fin 1024) :
    k0_pay3 (F := Ideal) r bl tot bias (ix2 p q)
      = (tot (ix2 p q) + ∑ j : Fin 16, r (ix2 p j) * bl (ix2 j q)) + bias (ix2 (0 : Fin 1) q) := by
  unfold k0_pay3
  simp only [shapeCast_self]
  show (tot (ix2 p q) + FloatOps.matmul dot_S1024x16_S16x1024_S1024x1024_1_0_0_1_n_n none r bl (constant (F := Ideal) S1024x1024 .f32 0x00000000#32) (ix2 p q))
      + broadcastTo S1024x1024 bias broadcasts_S1x1024_S1024x1024 (ix2 p q) = _
  rw [low_apply, row_broadcast_apply]

end Cert.KernelIdeal.Blocked

end
-- ==== Proof.Algebra.lean ====
/-
  The two laws of addition that join the blocked product to the whole one, over any commutative additive monoid (the
  extended reals are one: neither law moves a factor across a sum, so neither needs a finite operand).

  * A sum over 4096 columns is the sum, over four consecutive blocks of 1024 columns, of the sums inside each block.
  * A running total that starts from zero, takes on the blocks one after another, then a correction, then an offset, is
    the total plus the offset, plus the correction.
-/
import Idealize.ShloMosaic.PureOps.Ideal

namespace Cert.Proof.Algebra

/-- Column `1024·k + j` of an axis of 4096 columns: column `j` of the `k`-th block of 1024. (Reduced modulo 4096 so that it is
    a column for every natural `k`; for `k < 4` nothing is reduced.) -/
def col (k : ℕ) (j : Fin 1024) : Fin 4096 := ⟨(1024 * k + j.val) % 4096, Nat.mod_lt _ (by norm_num)⟩

theorem col_val (k : ℕ) (j : Fin 1024) (hk : k < 4) : (col k j).val = 1024 * k + j.val := by
  have := j.isLt
  show (1024 * k + j.val) % 4096 = _
  omega

/-- Row `1024·b + p` of an axis of `n` rows cut into blocks of 1024 (reduced modulo `n`, as `col`). -/
def row (n : ℕ) (hn : 0 < n) (b : ℕ) (p : Fin 1024) : Fin n := ⟨(1024 * b + p.val) % n, Nat.mod_lt _ hn⟩

theorem row_val (n : ℕ) (hn : 0 < n) (b : ℕ) (p : Fin 1024) (hb : 1024 * b + 1024 ≤ n) :
    (row n hn b p).val = 1024 * b + p.val := by
  have := p.isLt
  show (1024 * b + p.val) % n = _
  exact Nat.mod_eq_of_lt (by omega)

/-- A sum over all 4096 columns, block by block. -/
theorem sum_blocks {M : Type*} [AddCommMonoid M] (f : Fin 4096 → M) :
    ∑ i : Fin 4096, f i = ∑ k ∈ Finset.range 4, ∑ j : Fin 1024, f (col k j) := by
  have e : ∑ i : Fin 4096, f i = ∑ x : Fin 4 × Fin 1024, f (finProdFinEquiv x) :=
    (Equiv.sum_comp (finProdFinEquiv (m := 4) (n := 1024)) f).symm
  rw [e, Fintype.sum_prod_type, Finset.sum_range]
  refine Finset.sum_congr rfl fun k _ => Finset.sum_congr rfl fun j _ => congrArg f (Fin.ext ?_)
  rw [col_val k.val j k.isLt]
  show j.val + 1024 * k.val = _
  omega

/-- One more block joins the running total. -/
theorem total_succ {M : Type*} [AddCommMonoid M] (T : ℕ → M) (k : ℕ) :
    (0 + ∑ k' ∈ Finset.range (k + 1), T k') + T (k + 1) = 0 + ∑ k' ∈ Finset.range (k + 1 + 1), T k' := by
  rw [Finset.sum_range_succ _ (k + 1), add_assoc]

/-- The first block opens the running total. -/
theorem total_open {M : Type*} [AddCommMonoid M] (T : ℕ → M) (k : ℕ) (hk : k = 0) :
    0 + T k = 0 + ∑ k' ∈ Finset.range (k + 1), T k' := by
  subst hk
  rw [Finset.sum_range_one]

/-- The total, then the correction, then the offset — or the total, the offset, then the correction. -/
theorem regroup {M : Type*} [AddCommMonoid M] (P L b : M) : ((0 + P) + L) + b = (P + b) + L := by
  rw [zero_add, add_right_comm]

end Cert.Proof.Algebra
-- ==== Proof.Blocks.lean ====
/-
  Where each window's block sits in its array. The grid is 8 × 4 × 4 — row block, column block, contraction step — walked
  with the contraction step fastest, so the point numbered `t` is row block `t / 16`, column block `t / 4 mod 4`, step
  `t mod 4`. Every block is 1024 wide along each axis that is cut, and a block's entry `(p, j)` is the array's entry at
  block index × 1024 + the coordinate inside the block:

  * the `x` block    — rows of row block `t / 16`, columns of step `t mod 4`;
  * the `W` block    — rows (outputs) of column block `t / 4 mod 4`, columns of step `t mod 4`;
  * the `r` block    — rows of row block `t / 16`, all sixteen columns;
  * the bias block   — the one row, columns of column block `t / 4 mod 4`;
  * the `B` block    — all sixteen rows, columns of column block `t / 4 mod 4`.
-/
import proofs.«135452_j72980084293845_2_alg».proof.Proof.Gen.KernelIdeal.Frame
import proofs.«135452_j72980084293845_2_alg».proof.Proof.LibIdx
import proofs.«135452_j72980084293845_2_alg».proof.Proof.Algebra
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocked

open Cert.KernelIdeal Cert.KernelIdeal.Gen Cert.Proof.Algebra Cert.Proof.LibIdx

variable {F : FTy → Type} [FloatOps F]
variable (m : (ℓ : Loc nD τ sig) → Buf (Elt F) ℓ)

/-- The six index maps at the point numbered `t`, decided over the 128 points. -/
theorem index_maps : ∀ t : Fin cfg0.N,
    win0_0.index t 0 = t.val / 16 ∧ win0_0.index t 1 = t.val % 4
  ∧ win0_1.index t 0 = t.val / 4 % 4 ∧ win0_1.index t 1 = t.val % 4
  ∧ win0_2.index t 0 = t.val / 16 ∧ win0_2.index t 1 = 0
  ∧ win0_3.index t 0 = 0 ∧ win0_3.index t 1 = t.val / 4 % 4
  ∧ win0_4.index t 0 = 0 ∧ win0_4.index t 1 = t.val / 4 % 4
  ∧ win0_5.index t 0 = t.val / 16 ∧ win0_5.index t 1 = t.val / 4 % 4 :=
  (by decide +kernel : ∀ t : Fin grid0.N, _)

theorem point_lt (t : Fin cfg0.N) : t.val < 128 := lt_of_lt_of_eq t.isLt (show cfg0.N = 128 from N_0)

/-- The `x` block. -/
theorem x_block (c : Dev nD) (t : Fin cfg0.N) (p j : Fin 1024) :
    (iblk m c 0 t : Vec F S1024x1024 .bf16) (ix2 p j)
      = (V m c main_v2 : S8192x4096.Idx → Elt F .bf16) (ix2 (row 8192 (by norm_num) (t.val / 16) p) (col (t.val % 4) j)) := by
  unfold iblk
  rw [View.read_apply]
  show (V m c main_v2 : S8192x4096.Idx → Elt F .bf16) _ = V m c main_v2 _
  refine congrArg (V m c main_v2 : S8192x4096.Idx → Elt F .bf16) ?_
  have hN := point_lt t
  refine ix2_ext _ _ _ ?_ ?_
  · show win0_0.index t 0 * 1024 + 1 * p.val = _
    rw [(index_maps t).1, row_val 8192 (by norm_num) (t.val / 16) p (by omega)]; omega
  · show win0_0.index t 1 * 1024 + 1 * j.val = _
    rw [(index_maps t).2.1, col_val (t.val % 4) j (by omega)]; omega

/-- The `W` block. -/
theorem w_block (c : Dev nD) (t : Fin cfg0.N) (q j : Fin 1024) :
    (iblk m c 1 t : Vec F S1024x1024 .bf16) (ix2 q j)
      = (V m c main_v3 : S4096x4096.Idx → Elt F .bf16) (ix2 (row 4096 (by norm_num) (t.val / 4 % 4) q) (col (t.val % 4) j)) := by
  unfold iblk
  rw [View.read_apply]
  show (V m c main_v3 : S4096x4096.Idx → Elt F .bf16) _ = V m c main_v3 _
  refine congrArg (V m c main_v3 : S4096x4096.Idx → Elt F .bf16) ?_
  have hN := point_lt t
  refine ix2_ext _ _ _ ?_ ?_
  · show win0_1.index t 0 * 1024 + 1 * q.val = _
    rw [(index_maps t).2.2.1, row_val 4096 (by norm_num) (t.val / 4 % 4) q (by omega)]; omega
  · show win0_1.index t 1 * 1024 + 1 * j.val = _
    rw [(index_maps t).2.2.2.1, col_val (t.val % 4) j (by omega)]; omega

/-- The `r` block. -/
theorem r_block (c : Dev nD) (t : Fin cfg0.N) (p : Fin 1024) (k : Fin 16) :
    (iblk m c 2 t : Vec F S1024x16 .bf16) (ix2 p k)
      = (V m c main_v7 : S8192x16.Idx → Elt F .bf16) (ix2 (row 8192 (by norm_num) (t.val / 16) p) k) := by
  unfold iblk
  rw [View.read_apply]
  show (V m c main_v7 : S8192x16.Idx → Elt F .bf16) _ = V m c main_v7 _
  refine congrArg (V m c main_v7 : S8192x16.Idx → Elt F .bf16) ?_
  have hN := point_lt t
  refine ix2_ext _ _ _ ?_ ?_
  · show win0_2.index t 0 * 1024 + 1 * p.val = _
    rw [(index_maps t).2.2.2.2.1, row_val 8192 (by norm_num) (t.val / 16) p (by omega)]; omega
  · show win0_2.index t 1 * 16 + 1 * k.val = _
    rw [(index_maps t).2.2.2.2.2.1]; omega

/-- The bias block. -/
theorem bias_block (c : Dev nD) (t : Fin cfg0.N) (q : Fin 1024) :
    (iblk m c 3 t : Vec F S1x1024 .f32) (ix2 (0 : Fin 1) q)
      = (V m c main_v1 : S1x4096.Idx → Elt F .f32) (ix2 (0 : Fin 1) (row 4096 (by norm_num) (t.val / 4 % 4) q)) := by
  unfold iblk
  rw [View.read_apply]
  show (V m c main_v1 : S1x4096.Idx → Elt F .f32) _ = V m c main_v1 _
  refine congrArg (V m c main_v1 : S1x4096.Idx → Elt F .f32) ?_
  have hN := point_lt t
  refine ix2_ext _ _ _ ?_ ?_
  · show win0_3.index t 0 * 1 + 1 * 0 = _
    rw [(index_maps t).2.2.2.2.2.2.1]; rfl
  · show win0_3.index t 1 * 1024 + 1 * q.val = _
    rw [(index_maps t).2.2.2.2.2.2.2.1, row_val 4096 (by norm_num) (t.val / 4 % 4) q (by omega)]; omega

/-- The `B` block. -/
theorem b_block (c : Dev nD) (t : Fin cfg0.N) (k : Fin 16) (q : Fin 1024) :
    (iblk m c 4 t : Vec F S16x1024 .bf16) (ix2 k q)
      = (V m c main_v5 : S16x4096.Idx → Elt F .bf16) (ix2 k (row 4096 (by norm_num) (t.val / 4 % 4) q)) := by
  unfold iblk
  rw [View.read_apply]
  show (V m c main_v5 : S16x4096.Idx → Elt F .bf16) _ = V m c main_v5 _
  refine congrArg (V m c main_v5 : S16x4096.Idx → Elt F .bf16) ?_
  have hN := point_lt t
  refine ix2_ext _ _ _ ?_ ?_
  · show win0_4.index t 0 * 16 + 1 * k.val = _
    rw [(index_maps t).2.2.2.2.2.2.2.2.1]; omega
  · show win0_4.index t 1 * 1024 + 1 * q.val = _
    rw [(index_maps t).2.2.2.2.2.2.2.2.2.1, row_val 4096 (by norm_num) (t.val / 4 % 4) q (by omega)]; omega

end Cert.KernelIdeal.Blocked

end
-- ==== Proof.Operands.lean ====
/-
  Names for the arrays the proof speaks of, each as an array of extended reals: the five arguments as the launch finds
  them, and the five operands of the call as the region finds them (the host lines before the call have run).
-/
import proofs.«135452_j72980084293845_2_alg».proof.Proof.Gen.KernelIdeal.Frame
import Idealize.ShloMosaic.PureOps.Ideal

noncomputable section

open Idealize.ShloMosaic Idealize.ShloMosaic.TcCoe Idealize.SL.Sem

namespace Cert.KernelIdeal.Blocked

open Cert.KernelIdeal Cert.KernelIdeal.Gen

variable (m : (ℓ : Loc nD τ sig) → Buf (Elt Ideal) ℓ)

/-- The arguments: `x`, `W`, the bias, `lora_A`, `lora_B`. -/
abbrev argX (c : Dev nD) : S4x2048x4096.Idx → EReal := m ((c : Thread nD τ).loc main_arg0)
abbrev argW (c : Dev nD) : S4096x4096.Idx → EReal := m ((c : Thread nD τ).loc main_arg1)
abbrev argBias (c : Dev nD) : S4096.Idx → EReal := m ((c : Thread nD τ).loc main_arg2)
abbrev argA (c : Dev nD) : S4096x16.Idx → EReal := m ((c : Thread nD τ).loc main_arg3)
abbrev argB (c : Dev nD) : S16x4096.Idx → EReal := m ((c : Thread nD τ).loc main_arg4)

/-- The operands of the call: the flattened `x`, `W`, the thin product `r`, the bias row, `lora_B`. -/
abbrev opX (c : Dev nD) : S8192x4096.Idx → EReal := V m c main_v2
abbrev opW (c : Dev nD) : S4096x4096.Idx → EReal := V m c main_v3
abbrev opR (c : Dev nD) : S8192x16.Idx → EReal := V m c main_v7
abbrev opBias (c : Dev nD) : S1x4096.Idx → EReal := V m c main_v1
abbrev opB (c : Dev nD) : S16x4096.Idx → EReal := V m c main_v5

end Cert.KernelIdeal.Blocked

end
-- ==== Proof.Accum.lean ====
/-
  The running total across the grid, and the block each flushing point writes.

  The points are walked with the contraction step fastest, so each run of four consecutive points `4a, 4a+1, 4a+2, 4a+3`
  shares its row block and its column block and takes the four contraction steps in order. The first of the four zeroes
  the scratch; each adds its step's partial inner product. So after the point numbered `n` the scratch entry `(p, q)` is

      0 + (the partial inner products of steps 0 … n mod 4),

  by induction on `n`: where `n + 1` is not a multiple of four it has the row block, the column block and the next step
  of `n`. At the last of the four the output block is that finished total, plus the sixteen-term low-rank correction,
  plus the bias entry.
-/
import proofs.«135452_j72980084293845_2_alg».proof.Proof.Pieces
import proofs.«135452_j72980084293845_2_alg».proof.Proof.Payload
import proofs.«135452_j72980084293845_2_alg».proof.Proof.Blocks
import proofs.«135452_j72980084293845_2_alg».proof.Proof.Operands

set_option maxRecDepth 16384

noncomputable section

open Idealize.ShloMosaic Idealize.ShloMosaic.TcCoe Idealize.SL.Sem Idealize.ShloMosaic.ValueIdx

namespace Cert.KernelIdeal.Blocked

open Cert.KernelIdeal Cert.KernelIdeal.Gen Cert.Proof.Algebra Cert.Proof.LibIdx

variable (m : (ℓ : Loc nD τ sig) → Buf (Elt Ideal) ℓ)

/-- The partial inner product of contraction step `k`: row `p` of row block `I` of the `x` operand against row `q` of column
    block `J` of the `W` operand, over the 1024 columns of step `k`. -/
def stepDot (c : Dev nD) (I J k : ℕ) (p q : Fin 1024) : EReal :=
  ∑ j : Fin 1024, opX m c (ix2 (row 8192 (by norm_num) I p) (col k j)) * opW m c (ix2 (row 4096 (by norm_num) J q) (col k j))

/-- One step at the point numbered `t`, on a running total `acc`. -/
theorem step_entry (c : Dev nD) (t : Fin cfg0.N) (acc : Vec Ideal S1024x1024 .f32) (p q : Fin 1024) :
    k0_pay2 (F := Ideal) acc (iblk m c 0 t) (iblk m c 1 t) (ix2 p q)
      = acc (ix2 p q) + stepDot m c (t.val / 16) (t.val / 4 % 4) (t.val % 4) p q := by
  refine (step_apply acc (iblk m c 0 t) (iblk m c 1 t) p q).trans ?_
  unfold stepDot
  refine congrArg (acc (ix2 p q) + ·) (Finset.sum_congr rfl fun j _ => ?_)
  exact congrArg₂ (· * ·) (x_block m c t p j) (w_block m c t q j)

/-- The last step at the point numbered `t`, on a finished total `tot`: the correction and the bias entry, read off the
    operands at the block's place. -/
theorem finish_entry (c : Dev nD) (t : Fin cfg0.N) (tot : Vec Ideal S1024x1024 .f32) (p q : Fin 1024) :
    k0_pay3 (F := Ideal) (iblk m c 2 t) (iblk m c 4 t) tot (iblk m c 3 t) (ix2 p q)
      = (tot (ix2 p q)
          + ∑ k : Fin 16, opR m c (ix2 (row 8192 (by norm_num) (t.val / 16) p) k) * opB m c (ix2 k (row 4096 (by norm_num) (t.val / 4 % 4) q)))
        + opBias m c (ix2 (0 : Fin 1) (row 4096 (by norm_num) (t.val / 4 % 4) q)) := by
  refine (finish_apply (iblk m c 2 t) (iblk m c 4 t) tot (iblk m c 3 t) p q).trans ?_
  refine congrArg₂ (· + ·) (congrArg (tot (ix2 p q) + ·) (Finset.sum_congr rfl fun k _ => ?_)) (bias_block m c t q)
  exact congrArg₂ (· * ·) (r_block m c t p k) (b_block m c t k q)

attribute [local irreducible] stepDot

/-- After a point that opens a run of four, the scratch is the zero block plus the step. -/
theorem scratch_after_first (c : Dev nD) (t : Fin cfg0.N) (h0 : t.val % 4 = 0) :
    (outsAt0 m c t.val t.isLt).2 = k0_pay2 (k0_pay1 (F := Ideal)) (iblk m c 0 t) (iblk m c 1 t) := by
  have h1 : ¬t.val % 4 = 3 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After any other point, the scratch is what the point before left plus the step. -/
theorem scratch_after_next (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact scratch_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After a point that closes a run of four, the output block is the finishing payload of the scratch it leaves. -/
theorem out_after_last (c : Dev nD) (t : Fin cfg0.N) (h1 : t.val % 4 = 3) :
    (outsAt0 m c t.val t.isLt).1
      = k0_pay3 (iblk m c 2 t) (iblk m c 4 t) (outsAt0 m c t.val t.isLt).2 (iblk m c 3 t) := by
  have h0 : ¬t.val % 4 = 0 := by omega
  rw [outsAt0_C m c t h0 h1]
  dsimp only
  rw [scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

attribute [local irreducible] outsAt0 iblk

/-- THE RUNNING TOTAL after the point numbered `n`. -/
theorem running_total (c : Dev nD) : ∀ (n : ℕ) (h : n < cfg0.N) (p q : Fin 1024),
    (outsAt0 m c n h).2 (ix2 p q)
      = 0 + ∑ k ∈ Finset.range (n % 4 + 1), stepDot m c (n / 16) (n / 4 % 4) k p q
  | 0, h, p, q => by
    refine (congrFun (scratch_after_first m c ⟨0, h⟩ rfl) (ix2 p q)).trans ?_
    refine (step_entry m c ⟨0, h⟩ _ p q).trans ?_
    rw [zero_block_apply]
    dsimp only
    exact total_open (fun k => stepDot m c (0 / 16) (0 / 4 % 4) k p q) (0 % 4) rfl
  | n + 1, h, p, q => by
    have hN : n + 1 < 128 := lt_of_lt_of_eq h (show cfg0.N = 128 from N_0)
    by_cases h0 : (n + 1) % 4 = 0
    · refine (congrFun (scratch_after_first m c ⟨n + 1, h⟩ h0) (ix2 p q)).trans ?_
      refine (step_entry m c ⟨n + 1, h⟩ _ p q).trans ?_
      rw [zero_block_apply]
      dsimp only
      exact total_open (fun k => stepDot m c ((n + 1) / 16) ((n + 1) / 4 % 4) k p q) ((n + 1) % 4) h0
    · refine (congrFun (scratch_after_next m c ⟨n + 1, h⟩ h0) (ix2 p q)).trans ?_
      refine (step_entry m c ⟨n + 1, h⟩ _ p q).trans ?_
      have ih : (outsAt0 m c ((⟨n + 1, h⟩ : Fin cfg0.N).val - 1) (Nat.lt_of_le_of_lt (Nat.sub_le _ _) (⟨n + 1, h⟩ : Fin cfg0.N).isLt)).2 (ix2 p q)
          = 0 + ∑ k ∈ Finset.range (n % 4 + 1), stepDot m c (n / 16) (n / 4 % 4) k p q :=
        running_total c n (Nat.lt_of_succ_lt h) p q
      rw [ih]
      dsimp only
      have e1 : (n + 1) / 16 = n / 16 := by omega
      have e2 : (n + 1) / 4 % 4 = n / 4 % 4 := by omega
      have e3 : (n + 1) % 4 = n % 4 + 1 := by omega
      rw [e1, e2, e3]
      exact total_succ (fun k => stepDot m c (n / 16) (n / 4 % 4) k p q) (n % 4)

/-- THE OUTPUT BLOCK a flushing point leaves: the finished total, the low-rank correction, the bias entry. -/
theorem out_entry (c : Dev nD) (t : Fin cfg0.N) (h1 : t.val % 4 = 3) (p q : Fin 1024) :
    (outsAt0 m c t.val t.isLt).1 (ix2 p q)
      = ((0 + ∑ k ∈ Finset.range (3 + 1), stepDot m c (t.val / 16) (t.val / 4 % 4) k p q)
          + ∑ k : Fin 16, opR m c (ix2 (row 8192 (by norm_num) (t.val / 16) p) k) * opB m c (ix2 k (row 4096 (by norm_num) (t.val / 4 % 4) q)))
        + opBias m c (ix2 (0 : Fin 1) (row 4096 (by norm_num) (t.val / 4 % 4) q)) := by
  refine (congrFun (out_after_last m c t h1) (ix2 p q)).trans ?_
  refine (finish_entry m c t (outsAt0 m c t.val t.isLt).2 p q).trans ?_
  have et := running_total m c t.val t.isLt p q
  rw [h1] at et
  rw [et]

end Cert.KernelIdeal.Blocked

end
-- ==== Proof.Final.lean ====
/-
  From blocks to the array, and through the host line after the call.

  The output of the call is written back once per (row block, column block), at the last contraction step, and those 32
  blocks tile the 8192 × 4096 array: entry `(r, o)` lies in the block of row block `r / 1024` and column block
  `o / 1024`, written at the point numbered `16·(r / 1024) + 4·(o / 1024) + 3`. Each written block is the restriction
  of ONE function of the operands — entry `(r, o)` is

      ((0 + the four partial inner products of row r of x with row o of W) + Σₖ r[r, k] · B[k, o]) + bias[o]

  — so the array ends holding that function. The host line after the call only re-lays it as 4 × 2048 × 4096.
-/
import proofs.«135452_j72980084293845_2_alg».proof.Proof.Accum
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Blocked

open Cert.KernelIdeal Cert.KernelIdeal.Gen Cert.Proof.Algebra Cert.Proof.LibIdx

variable (m : (ℓ : Loc nD τ sig) → Buf (Elt Ideal) ℓ) (ρ : Dev nD → PrngReg)

/-- The call's output array as one function of its operands. -/
def wholeOut (c : Dev nD) : S8192x4096.Idx → EReal := fun y =>
  ((0 + ∑ k ∈ Finset.range (3 + 1), ∑ j : Fin 1024, opX m c (ix2 (y 0) (col k j)) * opW m c (ix2 (y 1) (col k j)))
      + ∑ k : Fin 16, opR m c (ix2 (y 0) k) * opB m c (ix2 k (y 1)))
    + opBias m c (ix2 (0 : Fin 1) (y 1))

/-- A flushing point's block, entry by entry, is that function at the block's place in the array. -/
theorem out_block (c : Dev nD) (t : Fin cfg0.N) (h1 : t.val % 4 = 3) (p q : Fin 1024) :
    (outsAt0 m c t.val t.isLt).1 (ix2 p q)
      = wholeOut m c (ix2 (row 8192 (by norm_num) (t.val / 16) p) (row 4096 (by norm_num) (t.val / 4 % 4) q)) := by
  refine (out_entry m c t h1 p q).trans ?_
  unfold wholeOut stepDot
  rfl

/-- WHAT A FLUSHING POINT WRITES BACK is its block of `wholeOut`. -/
theorem flushed_eq (c : Dev nD) (t : Fin cfg0.N) (hf : (cfg0.win 5).flush t = true) :
    (dats m 0 c).flushed 5 t = ((cfg0.win 5).blk t).view.read (Elt Ideal) (wholeOut m c) := by
  have h1 : t.val % 4 = 3 := (flush0_5 t).mp hf
  have hN := point_lt t
  show (cfg0.win 5).cut (grid0.coords t) ((dats m 0 c).after 5 t) = _
  rw [after0_5]
  funext y
  rw [View.read_apply]
  show (outsAt0 m c t.val t.isLt).1 y = wholeOut m c (((cfg0.win 5).blk t).view.emb y)
  have hy : y = ix2 (n0 := 1024) (n1 := 1024) (y 0) (y 1) := eq_ix2 (n0 := 1024) (n1 := 1024) y
  refine (congrArg (outsAt0 m c t.val t.isLt).1 hy).trans ((out_block m c t h1 (y 0) (y 1)).trans (congrArg (wholeOut m c) ?_))
  symm
  refine ix2_ext _ _ _ ?_ ?_
  · show win0_5.index t 0 * 1024 + 1 * (y 0).val = _
    have h0 : (y 0).val < 1024 := (y 0).isLt
    rw [(index_maps t).2.2.2.2.2.2.2.2.2.2.1, row_val 8192 (by norm_num) (t.val / 16) (y 0) (by omega)]; omega
  · show win0_5.index t 1 * 1024 + 1 * (y 1).val = _
    have h0 : (y 1).val < 1024 := (y 1).isLt
    rw [(index_maps t).2.2.2.2.2.2.2.2.2.2.2, row_val 4096 (by norm_num) (t.val / 4 % 4) (y 1) (by omega)]; omega

/-- An entry of the array is in point `t`'s block iff each coordinate is in the block's range on its axis. -/
theorem mem_block (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v8).slice (win0_5.rect t)).set ↔ _
  rw [View.set_slice_whole, Rect.mem_set_unit]
  exact Iff.rfl

/-- THE ARRAY after the call: `wholeOut`. -/
theorem final_out (c : Dev nD) : (dats m 0 c).arrAt 5 cfg0.N = wholeOut m c :=
  (dats m 0 c).arrAt_eq_of_cover 5 (wholeOut m c) (flushed_eq m c) fun i => by
    have h0 : (i 0).val < 8192 := (i 0).isLt
    have h1 : (i 1).val < 4096 := (i 1).isLt
    let t : Fin cfg0.N := ⟨16 * ((i 0).val / 1024) + 4 * ((i 1).val / 1024) + 3, by rw [show cfg0.N = 128 from N_0]; omega⟩
    have ht : t.val = 16 * ((i 0).val / 1024) + 4 * ((i 1).val / 1024) + 3 := rfl
    refine ⟨t, (flush0_5 t).mpr (by rw [ht]; omega), ?_⟩
    rw [mem_block]
    intro a
    match a with
    | ⟨0, _⟩ =>
      show win0_5.index t 0 * 1024 ≤ (i 0).val ∧ (i 0).val < win0_5.index t 0 * 1024 + 1024
      rw [(index_maps t).2.2.2.2.2.2.2.2.2.2.1, ht]; omega
    | ⟨1, _⟩ =>
      show win0_5.index t 1 * 1024 ≤ (i 1).val ∧ (i 1).val < win0_5.index t 1 * 1024 + 1024
      rw [(index_maps t).2.2.2.2.2.2.2.2.2.2.2, ht]; omega

/-- The host line after the call re-lays the array as 4 × 2048 × 4096. -/
theorem tail_eq (c : Dev nD) : Pipeline.afterTail₀ cfgs (dats m) 0 (V0 m) [hostOps1] c main_v9
    = shapeCast S4x2048x4096 (wholeOut m c) shapeCasts_S8192x4096_S4x2048x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = wholeOut m c :=
    (Pipeline.withArrays_arr spec0 launch0.win.arr_inj c (V0 m c) (fun w => (dats m 0 c).arrAt w cfg0.N) 5).trans (final_out m c)
  rw [e]
  rfl

/-- THE KERNEL'S RUN, READ: every weakly fair execution terminates with the result array at the call's output re-laid, and
    the five arguments unchanged. -/
theorem run : θ_run defs (onTc (τ := τ) (main (F := Ideal))) ⟨m, fun _ => 0, ρ⟩ fun r => ∀ c : Dev nD,
      r.2.mem ((c.tc : Thread nD τ).loc main_v9) = shapeCast S4x2048x4096 (wholeOut m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Blocked

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.Found.lean ====
/-
  What the region finds in its five window arrays, entry by entry, over the extended reals. The host lines before the
  call only re-lay and re-format the arguments — a change of float format is the identity on the extended reals — and
  form the thin product `x·A` once for the whole array:

  * the `x` operand is `x` with its two leading axes flattened: row `2048·b + s` is `x[b, s, ·]`;
  * the `W` and `B` operands are `W` and `lora_B` themselves;
  * the bias operand is the bias vector as one row;
  * the `r` operand at `(2048·b + s, k)` is the inner product of `x[b, s, ·]` with column `k` of `lora_A`.
-/
import proofs.«135452_j72980084293845_2_alg».proof.Proof.Operands
import proofs.«135452_j72980084293845_2_alg».proof.Proof.LibIdx
import proofs.«135452_j72980084293845_2_alg».proof.Proof.LibRank3Layout
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Blocked

open Cert.KernelIdeal Cert.KernelIdeal.Gen Cert.Proof.LibIdx Idealize.ShloMosaic.ValueLayout3

variable (m : (ℓ : Loc nD τ sig) → Buf (Elt Ideal) ℓ)

/-- The `x` operand: the argument with its leading axes flattened. -/
theorem found_x (c : Dev nD) : opX m c
    = shapeCast S8192x4096 (argX m c) shapeCasts_S4x2048x4096_S8192x4096 := by
  show StableHlo.after hostOps0 (fun b => m (c, b)) (Proc.devRef .tc main_v2) = _
  after_results; rfl

theorem found_x_apply (c : Dev nD) (r : Fin 8192) (b : Fin 4) (s : Fin 2048) (hr : r.val = b.val * 2048 + s.val) (i : Fin 4096) :
    opX m c (ix2 r i) = argX m c (ix3 b s i) := by
  rw [found_x]
  exact shapeCast_abc_nc_apply (argX m c) _ r b s i hr

/-- The `W` operand: the weight itself. -/
theorem found_w (c : Dev nD) : opW m c = argW m c := by
  show StableHlo.after hostOps0 (fun b => m (c, b)) (Proc.devRef .tc main_v3) = _
  after_results; rfl

/-- The `B` operand: `lora_B` itself. -/
theorem found_b (c : Dev nD) : opB m c = argB m c := by
  show StableHlo.after hostOps0 (fun b => m (c, b)) (Proc.devRef .tc main_v5) = _
  after_results; rfl

/-- The bias operand: the bias vector as one row. -/
theorem found_bias (c : Dev nD) : opBias m c
    = shapeCast S1x4096 (argBias m c) shapeCasts_S4096_S1x4096 := by
  show StableHlo.after hostOps0 (fun b => m (c, b)) (Proc.devRef .tc main_v1) = _
  after_results; rfl

theorem found_bias_apply (c : Dev nD) (o : Fin 4096) :
    opBias m c (ix2 (0 : Fin 1) o) = argBias m c (ix1 o) := by
  rw [found_bias]
  refine shapeCast_apply (s := S4096) (t := S1x4096) (argBias m c) _ _ _ ?_
  show (S4096.rowMajor (ix1 o)).val = (S1x4096.rowMajor (ix2 (0 : Fin 1) o)).val
  rw [Shape.rowMajor_val_one, Shape.rowMajor_val_two]
  show o.val = 0 * 4096 + o.val
  omega

/-- The `r` operand: the thin product of the flattened `x` with `lora_A`. -/
theorem found_r (c : Dev nD) : opR m c
    = Host.dotGeneral (F := Ideal) (φ₁ := .bf16) (φ₂ := .bf16) dot_S8192x4096_S4096x16_S8192x16_1_0_0_1_n_n none
        (shapeCast S8192x4096 (argX m c) shapeCasts_S4x2048x4096_S8192x4096) (argA m c) := by
  show StableHlo.after hostOps0 (fun b => m (c, b)) (Proc.devRef .tc main_v7) = _
  after_results; rfl

theorem thin_lhs_row (i : S8192x16.Idx) (κ : dot_S8192x4096_S4096x16_S8192x16_1_0_0_1_n_n.contr.Idx) :
    (dot_S8192x4096_S4096x16_S8192x16_1_0_0_1_n_n.lhsIdx i κ 0).val = (i 0).val := by
  unfold DotDims.lhsIdx
  rw [dif_neg (show ¬(0 : Fin S8192x4096.rank) ∈ dot_S8192x4096_S4096x16_S8192x16_1_0_0_1_n_n.lhsBatch by decide), dif_pos (show (0 : Fin S8192x4096.rank) ∈ dot_S8192x4096_S4096x16_S8192x16_1_0_0_1_n_n.lhsNonContracting by decide)]
  rfl

theorem thin_rhs_col (i : S8192x16.Idx) (κ : dot_S8192x4096_S4096x16_S8192x16_1_0_0_1_n_n.contr.Idx) :
    (dot_S8192x4096_S4096x16_S8192x16_1_0_0_1_n_n.rhsIdx i κ 1).val = (i 1).val := by
  unfold DotDims.rhsIdx
  rw [dif_neg (show ¬(1 : Fin S4096x16.rank) ∈ dot_S8192x4096_S4096x16_S8192x16_1_0_0_1_n_n.rhsBatch by decide), dif_pos (show (1 : Fin S4096x16.rank) ∈ dot_S8192x4096_S4096x16_S8192x16_1_0_0_1_n_n.rhsNonContracting by decide)]
  rfl

theorem found_r_apply (c : Dev nD) (r : Fin 8192) (b : Fin 4) (s : Fin 2048) (hr : r.val = b.val * 2048 + s.val) (k : Fin 16) :
    opR m c (ix2 r k)
      = ∑ i : Fin 4096, argX m c (ix3 b s i) * argA m c (ix2 i k) := by
  rw [found_r]
  simp only [Host.dotGeneral]
  rw [Ideal.dotGeneral_apply, ← Equiv.sum_comp (contrEquiv1 dot_S8192x4096_S4096x16_S8192x16_1_0_0_1_n_n 4096 rfl rfl).symm]
  refine Finset.sum_congr rfl fun i _ => ?_
  have hi := contrEquiv1_symm_val dot_S8192x4096_S4096x16_S8192x16_1_0_0_1_n_n 4096 rfl rfl i
  have el : dot_S8192x4096_S4096x16_S8192x16_1_0_0_1_n_n.lhsIdx (ix2 r k) ((contrEquiv1 dot_S8192x4096_S4096x16_S8192x16_1_0_0_1_n_n 4096 rfl rfl).symm i) = ix2 r i :=
    ix2_ext _ r i (thin_lhs_row _ _) ((dot_S8192x4096_S4096x16_S8192x16_1_0_0_1_n_n.lhsIdx_val_of_single rfl _ _).trans hi)
  have er : dot_S8192x4096_S4096x16_S8192x16_1_0_0_1_n_n.rhsIdx (ix2 r k) ((contrEquiv1 dot_S8192x4096_S4096x16_S8192x16_1_0_0_1_n_n 4096 rfl rfl).symm i) = ix2 i k :=
    ix2_ext _ i k ((dot_S8192x4096_S4096x16_S8192x16_1_0_0_1_n_n.rhsIdx_val_of_single rfl _ _).trans hi) (thin_rhs_col _ _)
  rw [el, er, shapeCast_abc_nc_apply (argX m c) _ r b s i hr]

end Cert.KernelIdeal.Blocked

end
-- ==== Proof.RefRead.lean ====
/-
  The reference's result at one entry `(b, s, o)`, over the extended reals: the base product of `x[b, s, ·]` with row `o`
  of `W`, plus the bias entry `o`, plus the low-rank term — the thin product `x[b, s, ·]·A` (sixteen inner products of
  4096 terms) against column `o` of `B`. Read off the reference's run one operation at a time.
-/
import proofs.«135452_j72980084293845_2_alg».proof.Proof.Gen.ReferenceIdeal.Read

noncomputable section

open Idealize.ShloMosaic Idealize.ShloMosaic.TcCoe Idealize.ShloMosaic.ValueIdx

namespace Cert.ReferenceIdeal.RefValue

open Cert.ReferenceIdeal Cert.ReferenceIdeal.Read

theorem ref_apply (x : S4x2048x4096.Idx → EReal) (W : S4096x4096.Idx → EReal) (bias : S4096.Idx → EReal)
    (A : S4096x16.Idx → EReal) (B : S16x4096.Idx → EReal) (b : Fin 4) (s : Fin 2048) (o : Fin 4096) :
    val_main_v6 (F := Ideal) x W bias A B (ix3 b s o)
      = (∑ k : Fin 4096, x (ix3 b s k) * W (ix2 o k) + bias (ix1 o))
        + ∑ q : Fin 16, (∑ k : Fin 4096, x (ix3 b s k) * A (ix2 k q)) * B (ix2 q o) := by
  have e0 : ∀ k, lidx_main_v0 (ix3 b s o) k = ix3 b s k := fun k =>
    funext fun a => Fin.ext (by match a with | ⟨0, _⟩ => rfl | ⟨1, _⟩ => rfl | ⟨2, _⟩ => rfl)
  have e1 : ∀ k, ridx_main_v0 (ix3 b s o) k = ix2 o k := fun k =>
    funext fun a => Fin.ext (by match a with | ⟨0, _⟩ => rfl | ⟨1, _⟩ => rfl)
  have e2 : idx_main_v1 (idx_main_v2 (ix3 b s o)) = ix1 o :=
    funext fun a => Fin.ext (by match a with | ⟨0, _⟩ => rfl)
  have e3 : ∀ q k, lidx_main_v4 (lidx_main_v5 (ix3 b s o) q) k = ix3 b s k := fun q k =>
    funext fun a => Fin.ext (by match a with | ⟨0, _⟩ => rfl | ⟨1, _⟩ => rfl | ⟨2, _⟩ => rfl)
  have e4 : ∀ q k, ridx_main_v4 (lidx_main_v5 (ix3 b s o) q) k = ix2 k q := fun q k =>
    funext fun a => Fin.ext (by match a with | ⟨0, _⟩ => rfl | ⟨1, _⟩ => rfl)
  have e5 : ∀ q, ridx_main_v5 (ix3 b s o) q = ix2 q o := fun q =>
    funext fun a => Fin.ext (by match a with | ⟨0, _⟩ => rfl | ⟨1, _⟩ => rfl)
  rw [val_main_v6_apply, val_main_v3_apply, val_main_v0_apply, val_main_v2_apply, val_main_v1_apply, val_main_v5_apply]
  simp only [val_main_v4_apply, e0, e1, e2, e3, e4, e5, Ideal.addf_def]

end Cert.ReferenceIdeal.RefValue

end
-- ==== Proof.Bridge.lean ====
/-
  The two programs compute one function. Entry `(b, s, o)` of the kernel's result is entry `(2048·b + s, o)` of the call's
  output array, which in terms of the arguments is

      ((0 + Σ over the four column blocks of the partial products of x[b, s, ·] and W[o, ·])
          + Σₖ (x[b, s, ·] · A[·, k]) · B[k, o]) + bias[o].

  The four partial products are one sum over all 4096 columns; and `((0 + P) + L) + β = (P + β) + L` in a commutative
  monoid. That is the reference's entry: the base product plus the bias, plus the low-rank term.
-/
import proofs.«135452_j72980084293845_2_alg».proof.Proof.Final
import proofs.«135452_j72980084293845_2_alg».proof.Proof.Found
import proofs.«135452_j72980084293845_2_alg».proof.Proof.RefRead
import proofs.«135452_j72980084293845_2_alg».proof.Proof.LibRank3Layout

set_option maxRecDepth 16384

noncomputable section

open Idealize.ShloMosaic Idealize.ShloMosaic.TcCoe Idealize.SL.Sem Idealize.ShloMosaic.ValueIdx

namespace Cert.KernelIdeal.Blocked

open Cert.KernelIdeal Cert.KernelIdeal.Gen Cert.Proof.Algebra Cert.Proof.LibIdx Idealize.ShloMosaic.ValueLayout3

variable (m : (ℓ : Loc nD τ sig) → Buf (Elt Ideal) ℓ)

attribute [local irreducible] wholeOut

/-- Entry `(2048·b + s, o)` of the call's output, in terms of the arguments. -/
theorem wholeOut_apply (c : Dev nD) (r : Fin 8192) (b : Fin 4) (s : Fin 2048) (hr : r.val = b.val * 2048 + s.val) (o : Fin 4096) :
    wholeOut m c (ix2 r o)
      = (∑ k : Fin 4096, argX m c (ix3 b s k) * argW m c (ix2 o k) + argBias m c (ix1 o))
        + ∑ q : Fin 16, (∑ k : Fin 4096, argX m c (ix3 b s k) * argA m c (ix2 k q)) * argB m c (ix2 q o) := by
  unfold wholeOut
  show ((0 + ∑ k ∈ Finset.range 4, ∑ j : Fin 1024, opX m c (ix2 r (col k j)) * opW m c (ix2 o (col k j)))
      + ∑ q : Fin 16, opR m c (ix2 r q) * opB m c (ix2 q o)) + opBias m c (ix2 (0 : Fin 1) o) = _
  have hblocks := sum_blocks (fun i : Fin 4096 => opX m c (ix2 r i) * opW m c (ix2 o i))
  have hbase : ∑ i : Fin 4096, opX m c (ix2 r i) * opW m c (ix2 o i)
      = ∑ k : Fin 4096, argX m c (ix3 b s k) * argW m c (ix2 o k) :=
    Finset.sum_congr rfl fun k _ => congrArg₂ (· * ·) (found_x_apply m c r b s hr k) (congrFun (found_w m c) (ix2 o k))
  have hlow : ∑ q : Fin 16, opR m c (ix2 r q) * opB m c (ix2 q o)
      = ∑ q : Fin 16, (∑ k : Fin 4096, argX m c (ix3 b s k) * argA m c (ix2 k q)) * argB m c (ix2 q o) :=
    Finset.sum_congr rfl fun q _ => congrArg₂ (· * ·) (found_r_apply m c r b s hr q) (congrFun (found_b m c) (ix2 q o))
  rw [← hblocks, hbase, hlow, found_bias_apply m c o]
  exact regroup _ _ _

/-- The kernel's result: the call's output re-laid as 4 × 2048 × 4096. -/
abbrev result (c : Dev nD) : S4x2048x4096.Idx → EReal :=
  shapeCast S4x2048x4096 (wholeOut m c) shapeCasts_S8192x4096_S4x2048x4096

/-- THE KERNEL'S RESULT IS THE REFERENCE'S, as functions of the arguments. -/
theorem result_eq (c : Dev nD) :
    result m c = Cert.ReferenceIdeal.Read.val_main_v6 (F := Ideal) (argX m c) (argW m c) (argBias m c) (argA m c) (argB m c) := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  have e := shapeCast_nc_abc_apply (wholeOut m c) shapeCasts_S8192x4096_S4x2048x4096 (⟨b.val * 2048 + s.val, hlt⟩ : Fin 8192) b s o rfl
  refine e.trans ?_
  rw [wholeOut_apply m c ⟨b.val * 2048 + s.val, hlt⟩ b s rfl o]
  exact (Cert.ReferenceIdeal.RefValue.ref_apply (argX m c) (argW m c) (argBias m c) (argA m c) (argB m c) b s o).symm

end Cert.KernelIdeal.Blocked

end
-- ==== Proof.lean ====
/-
  A linear layer with a low-rank correction, `x·Wᵀ + b + (x·A)·B`, computed two ways over the extended reals.

  The kernel flattens `x` to 8192 rows, forms the thin product `r = x·A` once on the host, and walks an 8 × 4 × 4 grid of
  1024-wide blocks — row block, column block, contraction step — keeping a running total of the base product in a scratch
  block: zeroed at the first step, one block product added per step; at the last step it adds `r·B` and the bias row and
  writes the output block. The reference forms `x·Wᵀ`, adds the bias, and adds `(x·A)·B`.

  A change of float format is the identity on the extended reals, and a matrix product into a zero accumulator is the plain
  sum of products, so entry `(b, s, o)` of the kernel's result is
      ((0 + Σ over the four column blocks of Σⱼ x[b,s,·]·W[o,·]) + Σₖ (Σᵢ x[b,s,i]·A[i,k])·B[k,o]) + bias[o]
  and the reference's is
      (Σᵢ x[b,s,i]·W[o,i] + bias[o]) + Σₖ (Σᵢ x[b,s,i]·A[i,k])·B[k,o].
  They differ by how one sum is bracketed and by the order of two additions: equal in any commutative monoid, the extended
  reals included, with no appeal to the inputs being finite. Idealizing the kernel rewrote none of its operations, so the
  claim relating the kernel to its idealization has nothing to state.

  The modules: Algebra (the two laws of addition), Pieces (what one grid point leaves, per case), Payload (the body's
  arithmetic at an entry), Blocks (where each block sits in its array), Operands (names), Accum (the running total, by
  induction on the point), Final (blocks to the array, and the host line after the call), Found (what the host lines before
  the call produce), RefRead (the reference at an entry), Bridge (the two are one function).
-/
import proofs.«135452_j72980084293845_2_alg».proof.Defs
import proofs.«135452_j72980084293845_2_alg».proof.Proof.Gen.Kernel
import proofs.«135452_j72980084293845_2_alg».proof.Proof.Gen.Kernel.Frame
import proofs.«135452_j72980084293845_2_alg».proof.Proof.Gen.KernelIdeal
import proofs.«135452_j72980084293845_2_alg».proof.Proof.Gen.KernelIdeal.Frame
import proofs.«135452_j72980084293845_2_alg».proof.Proof.Gen.ReferenceIdeal
import proofs.«135452_j72980084293845_2_alg».proof.Proof.Gen.ReferenceIdeal.Run
import proofs.«135452_j72980084293845_2_alg».proof.Proof.Gen.ReferenceIdeal.Read
import proofs.«135452_j72980084293845_2_alg».proof.Proof.Gen.Pre_finite_inputs
import proofs.«135452_j72980084293845_2_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : @Cert.frame_Kernel Cert.Kernel.Gen.facts Cert.Pre_finite_inputs.Gen.facts :=
  fun m ρ _ => Cert.Kernel.Gen.frame m ρ

/-- So does its idealization. -/
theorem frame_kernel_ideal : @Cert.frame_KernelIdeal Cert.KernelIdeal.Gen.facts Cert.Pre_finite_inputs.Gen.facts :=
  fun m ρ _ => Cert.KernelIdeal.Gen.frame m ρ

/-- The reference is a straight line of host operations: its run, with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the five arguments both programs end with the same result array: the kernel's run ends at
    the call's output re-laid, the reference's at its composed term, and the two are one function of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Blocked.result m c, Cert.KernelIdeal.Blocked.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1,
    (hagree c).2.2.2.2]
  exact (Cert.KernelIdeal.Blocked.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
